-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x2 .f32) (main_arg5 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S100000x2 : Shape := ⟨2, ![100000, 2]⟩
abbrev S10000x2 : Shape := ⟨2, ![10000, 2]⟩
abbrev S1x64 : Shape := ⟨2, ![1, 64]⟩
abbrev S1700000x2 : Shape := ⟨2, ![1700000, 2]⟩
abbrev S1x2 : Shape := ⟨2, ![1, 2]⟩

abbrev nBuf : Space → Nat
  | .hbm => 83
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S100000x2, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x2, .f32⟩
  | .hbm, ⟨73, _⟩ => ⟨S1700000x1, .f32⟩
  | .hbm, ⟨74, _⟩ => ⟨S1700000x2, .f32⟩
  | .hbm, ⟨75, _⟩ => ⟨S1700000x2, .f32⟩
  | .hbm, ⟨76, _⟩ => ⟨S_, .f32⟩
  | .hbm, ⟨77, _⟩ => ⟨S100000x2, .f32⟩
  | .hbm, ⟨78, _⟩ => ⟨S1700000x1, .i32⟩
  | .hbm, ⟨79, _⟩ => ⟨S100000x2, .f32⟩
  | .hbm, ⟨80, _⟩ => ⟨S1x2, .f32⟩
  | .hbm, ⟨81, _⟩ => ⟨S100000x2, .f32⟩
  | .hbm, ⟨82, _⟩ => ⟨S100000x2, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x2, .f32⟩
  | .local _ .vmem, ⟨9, _⟩ => ⟨S10000x2, .f32⟩
  | .local _ .vmem, ⟨10, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x2_S10000x2_1_0_0_1_n_n_wf : DotDims.WF S10000x64 S64x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x2, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x2, .f32⟩
  | .hbm, ⟨115, _⟩ => ⟨S1700000x1, .f32⟩
  | .hbm, ⟨116, _⟩ => ⟨S1700000x2, .f32⟩
  | .hbm, ⟨117, _⟩ => ⟨S1700000x2, .f32⟩
  | .hbm, ⟨118, _⟩ => ⟨S_, .f32⟩
  | .hbm, ⟨119, _⟩ => ⟨S100000x2, .f32⟩
  | .hbm, ⟨120, _⟩ => ⟨S1700000x1, .i32⟩
  | .hbm, ⟨121, _⟩ => ⟨S100000x2, .f32⟩
  | .hbm, ⟨122, _⟩ => ⟨S1x2, .f32⟩
  | .hbm, ⟨123, _⟩ => ⟨S100000x2, .f32⟩
  | .hbm, ⟨124, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run, keeping what the result buffer ends holding.

  The program is seven segments: three stretches of host operations, the first dense step launched over ten
  blocks of rows, a stretch of host operations (the first aggregation), the second dense step over ten blocks of
  rows, and a last stretch (the second aggregation and the bias). The buffer contents at each segment boundary are
  a fold from the launch memory; every weakly fair execution terminates with every unscoped buffer at the last
  boundary's contents. Read at the result buffer and at the six argument buffers, that is the statement here: the
  result at the fold's value, the arguments as launched.
-/
import proofs.«102471_j48309792145898_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument buffers as launched. -/
theorem run : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.Spec.lean ====
/-
  The function both programs compute: two rounds of a graph convolution on 100000 nodes.

  From the 2×1600000 array of directed edges, the source list and the target list, each followed by one
  self-loop per node (1700000 entries); the degree of a node is the number of list entries that target it, and
  an entry's weight is the product of the inverse square roots of its two endpoints' degrees (0 where a degree
  is not positive). One aggregation sends each row h[source] · weight to row target and adds up what arrives.
  The result is aggregate(relu(aggregate(x·W₁) + b₁)·W₂) + b₂.

  Everything here is a composition of whole-array operations, stated once, at any float instance; the source
  list, the target list and the weights enter an aggregation as parameters, so that a program that computes them
  once and a program that computes them twice are read against the same terms.
-/
import proofs.«102471_j48309792145898_1_alg».proof.ReferenceIdeal
import proofs.«102471_j48309792145898_1_alg».proof.Proof.Gen.ReferenceIdeal

noncomputable section

namespace Cert.Spec

open Idealize.ShloMosaic Cert.ReferenceIdeal Cert.ReferenceIdeal.Facts₀

variable {F : FTy → Type} [FloatOps F]

/-- The edge array, a list of 1700000 node numbers, and such a list as a column. -/
abbrev Edges (F : FTy → Type) := (⟨S2x1600000, .i32⟩ : BufTy).Contents (Elt F)
abbrev NodeList (F : FTy → Type) := (⟨S1700000, .i32⟩ : BufTy).Contents (Elt F)
abbrev Weights (F : FTy → Type) := (⟨S1700000, .f32⟩ : BufTy).Contents (Elt F)

/-- Row `r` of the edge array followed by the numbers 0 … 99999: the edges' endpoints, then the self-loops'. -/
def srcList (e : Edges F) : NodeList F :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0
def dstList (e : Edges F) : NodeList F :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: 100000 is added to it. -/
def wrapNeg (v : NodeList F) : NodeList F :=
  select (cmpi .slt v (broadcastInDim S1700000 ![] bcast_S_S1700000 (constantI S_ 32 0#32)))
    (addi v (broadcastInDim S1700000 ![] bcast_S_S1700000 (constantI S_ 32 100000#32))) v

/-- The number of list entries that target each node, as a float. -/
def degree (F : FTy → Type) [FloatOps F] (d : NodeList F) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- The inverse square root of each node's degree, 0 where the degree is not positive. -/
def invSqrtDegree (F : FTy → Type) [FloatOps F] (d : NodeList F) : (⟨S100000, .f32⟩ : BufTy).Contents (Elt F) :=
  select (cmpf .ogt (degree F d) (broadcastInDim S100000 ![] bcast_S_S100000 (constant (F := F) S_ .f32 0x00000000#32)))
    (Host.rsqrt (degree F d))
    (broadcastInDim S100000 ![] bcast_S_S100000 (constant (F := F) S_ .f32 0x00000000#32))

/-- An entry's weight: the product of its two endpoints' inverse square root degrees. -/
def edgeWeights (F : FTy → Type) [FloatOps F] (s d : NodeList F) : Weights F :=
  mulf (Host.gather gather_S100000_S1700000x1_S1700000_n_0_n_n_0_1_1 (invSqrtDegree F d) (broadcastInDim S1700000x1 ![0] bcast_S1700000_S1700000x1_0 (wrapNeg s)))
    (Host.gather gather_S100000_S1700000x1_S1700000_n_0_n_n_0_1_1 (invSqrtDegree F d) (broadcastInDim S1700000x1 ![0] bcast_S1700000_S1700000x1_0 (wrapNeg d)))

/-- One aggregation of 64-wide rows: row `target` receives the sum of h[source] · weight over the list. -/
def aggregate64 (s d : NodeList F) (n : Weights F) (h : (⟨S100000x64, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant (F := F) S_ .f32 0x00000000#32))
    (broadcastInDim S1700000x1 ![0] bcast_S1700000_S1700000x1_0 d)
    (mulf (Host.gather gather_S100000x64_S1700000x1_S1700000x64_1_0_n_n_0_1_164 h (broadcastInDim S1700000x1 ![0] bcast_S1700000_S1700000x1_0 (wrapNeg s)))
      (broadcastInDim S1700000x64 ![0, 1] bcast_S1700000x1_S1700000x64_0_1 (broadcastInDim S1700000x1 ![0] bcast_S1700000_S1700000x1_0 n)))

/-- The same aggregation of 2-wide rows. -/
def aggregate2 (s d : NodeList F) (n : Weights F) (h : (⟨S100000x2, .f32⟩ : BufTy).Contents (Elt F)) :
    (⟨S100000x2, .f32⟩ : BufTy).Contents (Elt F) :=
  Host.scatterAdd scatter_S100000x2_S1700000x1_S1700000x2_1_0_0_1
    (broadcastInDim S100000x2 ![] bcast_S_S100000x2 (constant (F := F) S_ .f32 0x00000000#32))
    (broadcastInDim S1700000x1 ![0] bcast_S1700000_S1700000x1_0 d)
    (mulf (Host.gather gather_S100000x2_S1700000x1_S1700000x2_1_0_n_n_0_1_12 h (broadcastInDim S1700000x1 ![0] bcast_S1700000_S1700000x1_0 (wrapNeg s)))
      (broadcastInDim S1700000x2 ![0, 1] bcast_S1700000x1_S1700000x2_0_1 (broadcastInDim S1700000x1 ![0] bcast_S1700000_S1700000x1_0 n)))

/-- The first dense step: x·W₁. -/
def project1 (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- The bias row added to every row, then the positive part. -/
def hidden (a : (⟨S100000x64, .f32⟩ : BufTy).Contents (Elt F)) (b : (⟨S64, .f32⟩ : BufTy).Contents (Elt F)) :
    (⟨S100000x64, .f32⟩ : BufTy).Contents (Elt F) :=
  maximumf (addf a (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The second dense step: relu(a + b₁)·W₂. -/
def project2 (a : (⟨S100000x64, .f32⟩ : BufTy).Contents (Elt F)) (b : (⟨S64, .f32⟩ : BufTy).Contents (Elt F))
    (w : (⟨S64x2, .f32⟩ : BufTy).Contents (Elt F)) : (⟨S100000x2, .f32⟩ : BufTy).Contents (Elt F) :=
  Host.dotGeneral dot_S100000x64_S64x2_S100000x2_1_0_0_1_n_n none (hidden a b) w

/-- The last step: the second aggregation plus the bias row b₂ on every row. -/
def finish (s d : NodeList F) (n : Weights F) (h : (⟨S100000x2, .f32⟩ : BufTy).Contents (Elt F))
    (b : (⟨S2, .f32⟩ : BufTy).Contents (Elt F)) : (⟨S100000x2, .f32⟩ : BufTy).Contents (Elt F) :=
  addf (aggregate2 s d n h) (broadcastInDim S100000x2 ![0, 1] bcast_S1x2_S100000x2_0_1 (broadcastInDim S1x2 ![1] bcast_S2_S1x2_1 b))

/-- The whole network. -/
def result (x : (⟨S100000x64, .f32⟩ : BufTy).Contents (Elt F)) (e : Edges F) (w1 : (⟨S64x64, .f32⟩ : BufTy).Contents (Elt F))
    (b1 : (⟨S64, .f32⟩ : BufTy).Contents (Elt F)) (w2 : (⟨S64x2, .f32⟩ : BufTy).Contents (Elt F))
    (b2 : (⟨S2, .f32⟩ : BufTy).Contents (Elt F)) : (⟨S100000x2, .f32⟩ : BufTy).Contents (Elt F) :=
  finish (srcList e) (dstList e) (edgeWeights F (srcList e) (dstList e))
    (project2 (aggregate64 (srcList e) (dstList e) (edgeWeights F (srcList e) (dstList e)) (project1 x w1)) b1 w2) b2

end Cert.Spec

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«102471_j48309792145898_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«102471_j48309792145898_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.Payloads.lean ====
/-
  What one launch of each kernel body stores, against the specification's dense steps.

  Each body works on a block of 10000 consecutive rows. The first stores the block's product with W₁; the second
  adds the bias row b₁ to every row of its block, takes the positive part and stores the product with W₂. Every one
  of these operations acts on a row by itself, so the stored block is the same block of rows of the whole-matrix
  result: `x·W₁`, and `relu(a + b₁)·W₂`. The narrowing casts in front of the matrix unit are the identity at the
  extended reals and the zero accumulator adds nothing. No finiteness is used.
-/
import proofs.«102471_j48309792145898_1_alg».proof.Proof.Gen.KernelIdeal.Skeleton
import proofs.«102471_j48309792145898_1_alg».proof.Proof.Spec
import proofs.«102471_j48309792145898_1_alg».proof.Proof.LibPlainRecord

noncomputable section

namespace Cert.KernelIdeal.Payloads

open Idealize.ShloMosaic Idealize.ShloMosaic.ValueIdx Cert.KernelIdeal Cert.KernelIdeal.Gen Cert.Lib.DenseLayer

/-- The four product records — a block's and the whole matrix's, for each dense step — are the plain ones. -/
theorem plain_block1 : Plain dot_S10000x64_S64x64_S10000x64_1_0_0_1_n_n := Plain.of_fields _ rfl rfl rfl rfl rfl rfl
theorem plain_block2 : Plain dot_S10000x64_S64x2_S10000x2_1_0_0_1_n_n := Plain.of_fields _ rfl rfl rfl rfl rfl rfl
theorem plain_whole1 : Plain Cert.ReferenceIdeal.dot_S100000x64_S64x64_S100000x64_1_0_0_1_n_n := Plain.of_fields _ rfl rfl rfl rfl rfl rfl
theorem plain_whole2 : Plain Cert.ReferenceIdeal.dot_S100000x64_S64x2_S100000x2_1_0_0_1_n_n := Plain.of_fields _ rfl rfl rfl rfl rfl rfl

/-- The first body's stored block is the block of rows of x·W₁. -/
theorem pay0_rows (off : Nat) (xb : Vec Ideal S10000x64 .f32) (wb : Vec Ideal S64x64 .f32)
    (X : FVec Ideal Cert.ReferenceIdeal.S100000x64 .f32) (W : FVec Ideal Cert.ReferenceIdeal.S64x64 .f32)
    (hx : RowBlk off xb X) (hw : wb = W) :
    RowBlk off (k0_pay1 (F := Ideal) xb wb) (Cert.Spec.project1 (F := Ideal) X W) := by
  subst hw
  unfold k0_pay1 Cert.Spec.project1
  exact RowBlk.matmul plain_block1 plain_whole1 hx wb _ _

/-- The second body's stored block is the block of rows of relu(a + b₁)·W₂. -/
theorem pay1_rows (off : Nat) (xb : Vec Ideal S10000x64 .f32) (bb : Vec Ideal S64 .f32) (wb : Vec Ideal S64x2 .f32)
    (A : FVec Ideal Cert.ReferenceIdeal.S100000x64 .f32) (B : FVec Ideal Cert.ReferenceIdeal.S64 .f32)
    (W : FVec Ideal Cert.ReferenceIdeal.S64x2 .f32)
    (hx : RowBlk off xb A) (hb : bb = B) (hw : wb = W) :
    RowBlk off (k1_pay1 (F := Ideal) xb bb wb) (Cert.Spec.project2 (F := Ideal) A B W) := by
  subst hb hw
  unfold k1_pay1 Cert.Spec.project2 Cert.Spec.hidden
  refine RowBlk.matmul plain_block2 plain_whole2 ?_ wb _ _
  refine RowBlk.max (RowBlk.add (hx.castSelf _) ?_) (RowBlk.const (Scalar.ofBits (F := Ideal) .f32 0x00000000#32) (fun _ => rfl) (fun _ => rfl))
  rw [addUnit_eq_bcast (by decide) bb _ Cert.ReferenceIdeal.Facts₀.bcast_S64_S1x64_1]
  exact RowBlk.bias _ _ _

end Cert.KernelIdeal.Payloads

end
-- ==== Proof.Blocks.lean ====
/-
  From blocks to arrays: what each dense step's output array holds after its launch.

  Each launch runs its body at ten grid points; point t reads rows 10000·t … 10000·t + 9999 of its first operand
  (and the whole of the small operands) and writes back the same rows of its output. A written-back block is
  the body's stored value of the blocks read; by the row-block lemmas that is the same block of rows of the
  whole-matrix dense step of the arrays as the launch finds them. The ten blocks cover the output array (row r is
  in block r / 10000), so the array ends holding the dense step of the operand arrays.
-/
import proofs.«102471_j48309792145898_1_alg».proof.Proof.Gen.KernelIdeal.Frame
import proofs.«102471_j48309792145898_1_alg».proof.Proof.Payloads
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Payloads Cert.Lib.DenseLayer
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-! ## The first dense step -/

/-- The printed index maps over the grid: the row operand's and the output's block number is the point, the
    weight matrix is one block. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of the row operand read at point t is rows 10000·t … of the array. -/
theorem rows_in0 (c : Dev nD) (t : Fin cfg0.N) :
    RowBlk (Mb := 10000) (M := 100000) (K := 64) (t.val * 10000) (iblk0 V c 0 t) (V c main_arg0) := by
  obtain ⟨e0, e1, -, -, -, -⟩ := index_maps0 t
  intro r h k
  show V c main_arg0 (((cfg0.win 0).blk t).view.emb (ix2 r k)) = V c main_arg0 (ix2 ⟨t.val * 10000 + r.val, h⟩ k)
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 64 + 1 * k.val = k.val; omega

/-- The weight matrix is read whole at every point. -/
theorem weights_in0 (c : Dev nD) (t : Fin cfg0.N) : iblk0 V c 1 t = V c main_arg2 := by
  obtain ⟨-, -, e2, e3, -, -⟩ := index_maps0 t
  funext y
  show V c main_arg2 (((cfg0.win 1).blk t).view.emb y) = V c main_arg2 y
  refine congrArg (V c main_arg2) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- What point t writes back is block t of x·W₁ of the arrays as the launch finds them. -/
theorem flushed0 (c : Dev nD) (t : Fin cfg0.N) :
    (dat0 V c).flushed 2 t = ((cfg0.win 2).blk t).view.read (Elt Ideal)
      (Cert.Spec.project1 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S64x64) origin2]
  obtain ⟨-, -, -, -, e4, e5⟩ := index_maps0 t
  have hN : t.val < 10 := by have h : t.val < grid0.N := t.isLt; rwa [N_0] at h
  funext j
  have hj0 : (j 0).val < 10000 := (j 0).isLt
  have hlt : t.val * 10000 + (j 0).val < 100000 := by omega
  obtain ⟨p, q, rfl⟩ : ∃ (p : Fin 10000) (q : Fin 64), j = ix2 p q := ⟨j 0, j 1, eq_ix2 j⟩
  refine (pay0_rows (t.val * 10000) (iblk0 V c 0 t) (iblk0 V c 1 t) (V c main_arg0) (V c main_arg2)
    (rows_in0 V c t) (weights_in0 V c t) p hlt q).trans ?_
  show Cert.Spec.project1 (F := Ideal) (V c main_arg0) (V c main_arg2) (ix2 ⟨t.val * 10000 + p.val, hlt⟩ q)
    = Cert.Spec.project1 (F := Ideal) (V c main_arg0) (V c main_arg2) (((cfg0.win 2).blk t).view.emb (ix2 p q))
  refine congrArg _ (funext fun a => Fin.ext ?_)
  match a with
  | ⟨0, _⟩ => show t.val * 10000 + p.val = win0_2.index t (0 : Fin 2) * 10000 + 1 * p.val; omega
  | ⟨1, _⟩ => show q.val = win0_2.index t (1 : Fin 2) * 64 + 1 * q.val; omega

/-- An index of the output array is in point t's block iff each coordinate is in the block's range. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r of the output is in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = grid0.N from rfl, N_0]; omega⟩
  obtain ⟨-, -, -, -, e4, e5⟩ := index_maps0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the first launch its output array holds x·W₁ of the arrays the launch found. -/
theorem array0 (c : Dev nD) :
    (dat0 V c).arrAt 2 cfg0.N = Cert.Spec.project1 (F := Ideal) (V c main_arg0) (V c main_arg2) :=
  (dat0 V c).arrAt_eq_of_cover 2 _ (fun t _ => flushed0 V c t) cover0

/-! ## The second dense step -/

theorem index_maps1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rows_in1 (c : Dev nD) (t : Fin cfg1.N) :
    RowBlk (Mb := 10000) (M := 100000) (K := 64) (t.val * 10000) (iblk1 V c 0 t) (V c main_v43) := by
  obtain ⟨e0, e1, -, -, -, -, -⟩ := index_maps1 t
  intro r h k
  show V c main_v43 (((cfg1.win 0).blk t).view.emb (ix2 r k)) = V c main_v43 (ix2 ⟨t.val * 10000 + r.val, h⟩ k)
  refine congrArg (V c main_v43) (funext fun a => Fin.ext ?_)
  match a with
  | ⟨0, _⟩ => show win1_0.index t (0 : Fin 2) * 10000 + 1 * r.val = t.val * 10000 + r.val; omega
  | ⟨1, _⟩ => show win1_0.index t (1 : Fin 2) * 64 + 1 * k.val = k.val; omega

theorem bias_in1 (c : Dev nD) (t : Fin cfg1.N) : iblk1 V c 1 t = V c main_arg3 := by
  obtain ⟨-, -, e2, -, -, -, -⟩ := index_maps1 t
  funext y
  show V c main_arg3 (((cfg1.win 1).blk t).view.emb y) = V c main_arg3 y
  refine congrArg (V c main_arg3) (funext fun a => Fin.ext ?_)
  match a with
  | ⟨0, _⟩ => show win1_1.index t (0 : Fin 1) * 64 + 1 * (y 0).val = (y 0).val; omega

theorem weights_in1 (c : Dev nD) (t : Fin cfg1.N) : iblk1 V c 2 t = V c main_arg4 := by
  obtain ⟨-, -, -, e3, e4, -, -⟩ := index_maps1 t
  funext y
  show V c main_arg4 (((cfg1.win 2).blk t).view.emb y) = V c main_arg4 y
  refine congrArg (V c main_arg4) (funext fun a => Fin.ext ?_)
  match a with
  | ⟨0, _⟩ => show win1_2.index t (0 : Fin 2) * 64 + 1 * (y 0).val = (y 0).val; omega
  | ⟨1, _⟩ => show win1_2.index t (1 : Fin 2) * 2 + 1 * (y 1).val = (y 1).val; omega

/-- What point t writes back is block t of relu(a + b₁)·W₂ of the arrays as the launch finds them. -/
theorem flushed1 (c : Dev nD) (t : Fin cfg1.N) :
    (dat1 V c).flushed 3 t = ((cfg1.win 3).blk t).view.read (Elt Ideal)
      (Cert.Spec.project2 (F := Ideal) (V c main_v43) (V c main_arg3) (V c main_arg4)) := by
  show (cfg1.win 3).cut (grid1.coords t) ((dat1 V c).after 3 t) = _
  rw [after1_3]
  unfold out1_3
  rw [View.canon_unit_zero origin2]
  simp only [View.ld_unit_zero (S := S10000x64) origin2, View.ld_unit_zero (S := S64) origin1, View.ld_unit_zero (S := S64x2) origin2]
  obtain ⟨-, -, -, -, -, e5, e6⟩ := index_maps1 t
  have hN : t.val < 10 := by have h : t.val < grid1.N := t.isLt; rwa [N_1] at h
  funext j
  have hj0 : (j 0).val < 10000 := (j 0).isLt
  have hlt : t.val * 10000 + (j 0).val < 100000 := by omega
  obtain ⟨p, q, rfl⟩ : ∃ (p : Fin 10000) (q : Fin 2), j = ix2 p q := ⟨j 0, j 1, eq_ix2 j⟩
  refine (pay1_rows (t.val * 10000) (iblk1 V c 0 t) (iblk1 V c 1 t) (iblk1 V c 2 t) (V c main_v43) (V c main_arg3) (V c main_arg4)
    (rows_in1 V c t) (bias_in1 V c t) (weights_in1 V c t) p hlt q).trans ?_
  show Cert.Spec.project2 (F := Ideal) (V c main_v43) (V c main_arg3) (V c main_arg4) (ix2 ⟨t.val * 10000 + p.val, hlt⟩ q)
    = Cert.Spec.project2 (F := Ideal) (V c main_v43) (V c main_arg3) (V c main_arg4) (((cfg1.win 3).blk t).view.emb (ix2 p q))
  refine congrArg _ (funext fun a => Fin.ext ?_)
  match a with
  | ⟨0, _⟩ => show t.val * 10000 + p.val = win1_3.index t (0 : Fin 2) * 10000 + 1 * p.val; omega
  | ⟨1, _⟩ => show q.val = win1_3.index t (1 : Fin 2) * 2 + 1 * q.val; omega

theorem mem_block1 (t : Fin cfg1.N) (i : S100000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v44).slice (win1_3.rect t)).set ↔ _
  rw [View.set_slice_whole, Rect.mem_set_unit]
  exact Iff.rfl

theorem cover1 (i : S100000x2.Idx) : ∃ t : Fin cfg1.N, (cfg1.win 3).flush t = true ∧ i ∈ ((cfg1.win 3).blk t).view.set := by
  have hi0 : (i 0).val < 100000 := (i 0).isLt
  have hi1 : (i 1).val < 2 := (i 1).isLt
  let t : Fin cfg1.N := ⟨(i 0).val / 10000, by rw [show cfg1.N = grid1.N from rfl, N_1]; omega⟩
  obtain ⟨-, -, -, -, -, e5, e6⟩ := index_maps1 t
  have ht : t.val = (i 0).val / 10000 := rfl
  refine ⟨t, flush1_3 t, ?_⟩
  rw [mem_block1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 2 ≤ (i 1).val ∧ (i 1).val < win1_3.index t (1 : Fin 2) * 2 + 2; omega

/-- After the second launch its output array holds relu(a + b₁)·W₂ of the arrays the launch found. -/
theorem array1 (c : Dev nD) :
    (dat1 V c).arrAt 3 cfg1.N = Cert.Spec.project2 (F := Ideal) (V c main_v43) (V c main_arg3) (V c main_arg4) :=
  (dat1 V c).arrAt_eq_of_cover 3 _ (fun t _ => flushed1 V c t) cover1

end Cert.KernelIdeal.Blocks

end
-- ==== Proof.Fold.lean ====
/-
  The idealized kernel's result buffer, read back through the program's seven segments.

  Before the first launch the host operations compute, from the edge array, the source list, the target list and
  the weights of Spec.lean; nothing after that writes those three buffers or an argument, so every later segment finds
  them unchanged. The first launch leaves x·W₁ in its output array; the next stretch aggregates it; the second
  launch leaves relu(a + b₁)·W₂ of that aggregate; the last stretch aggregates again and adds b₂. Composed, the
  result buffer holds the network of Spec.lean applied to the six launch arguments.

  The kernel's host operations carry the kernel program's own shape records and the specification the reference
  program's; the two families have the same fields, so the composed terms agree by unfolding. That comparison is
  made at an arbitrary float instance, where a float constant is just a symbol; only the two launches' arrays are
  read at the extended reals.
-/
import proofs.«102471_j48309792145898_1_alg».proof.Proof.Gen.KernelIdeal.Frame
import proofs.«102471_j48309792145898_1_alg».proof.Proof.Blocks
import proofs.«102471_j48309792145898_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

/-- A read that sits inside a concatenation's list of pieces is walked back to its operation by rewriting. -/
macro "walk_pieces" : tactic => `(tactic| repeat (first
   | rw [nullary_result] | rw [unary_result] | rw [binary_result] | rw [ternary_result] | rw [reshape_result]
   | (rw [nullary_result_ne]; rotate_left; decide)
   | (rw [unary_result_ne]; rotate_left; decide)
   | (rw [binary_result_ne]; rotate_left; decide)
   | (rw [ternary_result_ne]; rotate_left; decide)
   | (rw [reshape_result_ne]; rotate_left; decide)))

/-! # At any float instance: the host stretches as compositions of whole-array operations -/

section AnyInstance

variable {F : FTy → Type} [FloatOps F]
variable (m : (ℓ : Loc nD τ sig) → Buf (Elt F) ℓ) (ρ : Dev nD → PrngReg)

/-! ## At the first launch's entry: what the first three stretches computed -/

set_option maxHeartbeats 4000000 in
theorem src3 (c : Dev nD) : W3 m ρ c (Proc.devRef .tc main_v5) = Cert.Spec.srcList (F := F) (m ((c.tc : Thread nD τ).loc main_arg1)) := by
  show StableHlo.after hostOps0_2 (StableHlo.after hostOps0_1 (StableHlo.after hostOps0 (W0 m ρ c))) (Proc.devRef .tc main_v5) = _
  after_results_simp
  walk_pieces
  rfl

set_option maxHeartbeats 4000000 in
theorem dst3 (c : Dev nD) : W3 m ρ c (Proc.devRef .tc main_v6) = Cert.Spec.dstList (F := F) (m ((c.tc : Thread nD τ).loc main_arg1)) := by
  show StableHlo.after hostOps0_2 (StableHlo.after hostOps0_1 (StableHlo.after hostOps0 (W0 m ρ c))) (Proc.devRef .tc main_v6) = _
  after_results_simp
  walk_pieces
  rfl

set_option maxHeartbeats 8000000 in
theorem weights3 (c : Dev nD) : W3 m ρ c (Proc.devRef .tc main_v29) = Cert.Spec.edgeWeights F (Cert.Spec.srcList (F := F) (m ((c.tc : Thread nD τ).loc main_arg1))) (Cert.Spec.dstList (F := F) (m ((c.tc : Thread nD τ).loc main_arg1))) := by
  show StableHlo.after hostOps0_2 (StableHlo.after hostOps0_1 (StableHlo.after hostOps0 (W0 m ρ c))) (Proc.devRef .tc main_v29) = _
  after_results_simp
  walk_pieces
  rfl

set_option maxHeartbeats 4000000 in
theorem x3 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp

set_option maxHeartbeats 4000000 in
theorem w1_3 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp

set_option maxHeartbeats 4000000 in
theorem b1_3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results_simp

set_option maxHeartbeats 4000000 in
theorem w2_3 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results_simp

set_option maxHeartbeats 4000000 in
theorem b2_3 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results_simp

/-! ## After the first launch: everything but its arrays is as at its entry -/

theorem src4 (c : Dev nD) : W4 m ρ c (Proc.devRef .tc main_v5) = Cert.Spec.srcList (F := F) (m ((c.tc : Thread nD τ).loc main_arg1)) :=
  (W4_of_ne m ρ c main_v5 (by decide)).trans (src3 m ρ c)
theorem dst4 (c : Dev nD) : W4 m ρ c (Proc.devRef .tc main_v6) = Cert.Spec.dstList (F := F) (m ((c.tc : Thread nD τ).loc main_arg1)) :=
  (W4_of_ne m ρ c main_v6 (by decide)).trans (dst3 m ρ c)
theorem weights4 (c : Dev nD) : W4 m ρ c (Proc.devRef .tc main_v29) = Cert.Spec.edgeWeights F (Cert.Spec.srcList (F := F) (m ((c.tc : Thread nD τ).loc main_arg1))) (Cert.Spec.dstList (F := F) (m ((c.tc : Thread nD τ).loc main_arg1))) :=
  (W4_of_ne m ρ c main_v29 (by decide)).trans (weights3 m ρ c)
theorem b1_4 (c : Dev nD) : W4 m ρ c (Proc.devRef .tc main_arg3) = (m ((c.tc : Thread nD τ).loc main_arg3)) :=
  (W4_of_ne m ρ c main_arg3 (by decide)).trans (b1_3 m ρ c)
theorem w2_4 (c : Dev nD) : W4 m ρ c (Proc.devRef .tc main_arg4) = (m ((c.tc : Thread nD τ).loc main_arg4)) :=
  (W4_of_ne m ρ c main_arg4 (by decide)).trans (w2_3 m ρ c)
theorem b2_4 (c : Dev nD) : W4 m ρ c (Proc.devRef .tc main_arg5) = (m ((c.tc : Thread nD τ).loc main_arg5)) :=
  (W4_of_ne m ρ c main_arg5 (by decide)).trans (b2_3 m ρ c)

/-! ## At the second launch's entry: the first aggregation -/

set_option maxHeartbeats 4000000 in
theorem aggregated5 (c : Dev nD) : W5 m ρ c (Proc.devRef .tc main_v43)
    = Cert.Spec.aggregate64 (F := F) (W4 m ρ c (Proc.devRef .tc main_v5)) (W4 m ρ c (Proc.devRef .tc main_v6))
        (W4 m ρ c (Proc.devRef .tc main_v29)) (W4 m ρ c (Proc.devRef .tc main_v30)) := by
  show StableHlo.after hostOps1 (W4 m ρ c) (Proc.devRef .tc main_v43) = _
  after_results_simp
  rfl

set_option maxHeartbeats 4000000 in
theorem src5 (c : Dev nD) : W5 m ρ c (Proc.devRef .tc main_v5) = W4 m ρ c (Proc.devRef .tc main_v5) := by
  show StableHlo.after hostOps1 (W4 m ρ c) (Proc.devRef .tc main_v5) = _
  after_results_simp

set_option maxHeartbeats 4000000 in
theorem dst5 (c : Dev nD) : W5 m ρ c (Proc.devRef .tc main_v6) = W4 m ρ c (Proc.devRef .tc main_v6) := by
  show StableHlo.after hostOps1 (W4 m ρ c) (Proc.devRef .tc main_v6) = _
  after_results_simp

set_option maxHeartbeats 4000000 in
theorem weights5 (c : Dev nD) : W5 m ρ c (Proc.devRef .tc main_v29) = W4 m ρ c (Proc.devRef .tc main_v29) := by
  show StableHlo.after hostOps1 (W4 m ρ c) (Proc.devRef .tc main_v29) = _
  after_results_simp

set_option maxHeartbeats 4000000 in
theorem b1_5 (c : Dev nD) : W5 m ρ c (Proc.devRef .tc main_arg3) = W4 m ρ c (Proc.devRef .tc main_arg3) := by
  show StableHlo.after hostOps1 (W4 m ρ c) (Proc.devRef .tc main_arg3) = _
  after_results_simp

set_option maxHeartbeats 4000000 in
theorem w2_5 (c : Dev nD) : W5 m ρ c (Proc.devRef .tc main_arg4) = W4 m ρ c (Proc.devRef .tc main_arg4) := by
  show StableHlo.after hostOps1 (W4 m ρ c) (Proc.devRef .tc main_arg4) = _
  after_results_simp

set_option maxHeartbeats 4000000 in
theorem b2_5 (c : Dev nD) : W5 m ρ c (Proc.devRef .tc main_arg5) = W4 m ρ c (Proc.devRef .tc main_arg5) := by
  show StableHlo.after hostOps1 (W4 m ρ c) (Proc.devRef .tc main_arg5) = _
  after_results_simp

/-! ## After the second launch -/

theorem src6 (c : Dev nD) : W6 m ρ c (Proc.devRef .tc main_v5) = Cert.Spec.srcList (F := F) (m ((c.tc : Thread nD τ).loc main_arg1)) :=
  (W6_of_ne m ρ c main_v5 (by decide)).trans ((src5 m ρ c).trans (src4 m ρ c))
theorem dst6 (c : Dev nD) : W6 m ρ c (Proc.devRef .tc main_v6) = Cert.Spec.dstList (F := F) (m ((c.tc : Thread nD τ).loc main_arg1)) :=
  (W6_of_ne m ρ c main_v6 (by decide)).trans ((dst5 m ρ c).trans (dst4 m ρ c))
theorem weights6 (c : Dev nD) : W6 m ρ c (Proc.devRef .tc main_v29) = Cert.Spec.edgeWeights F (Cert.Spec.srcList (F := F) (m ((c.tc : Thread nD τ).loc main_arg1))) (Cert.Spec.dstList (F := F) (m ((c.tc : Thread nD τ).loc main_arg1))) :=
  (W6_of_ne m ρ c main_v29 (by decide)).trans ((weights5 m ρ c).trans (weights4 m ρ c))
theorem b2_6 (c : Dev nD) : W6 m ρ c (Proc.devRef .tc main_arg5) = (m ((c.tc : Thread nD τ).loc main_arg5)) :=
  (W6_of_ne m ρ c main_arg5 (by decide)).trans ((b2_5 m ρ c).trans (b2_4 m ρ c))

/-! ## The last stretch: the second aggregation and the bias -/

set_option maxHeartbeats 4000000 in
theorem finished7 (c : Dev nD) : W7 m ρ c (Proc.devRef .tc main_v60)
    = Cert.Spec.finish (F := F) (W6 m ρ c (Proc.devRef .tc main_v5)) (W6 m ρ c (Proc.devRef .tc main_v6))
        (W6 m ρ c (Proc.devRef .tc main_v29)) (W6 m ρ c (Proc.devRef .tc main_v44)) (W6 m ρ c (Proc.devRef .tc main_arg5)) := by
  show StableHlo.after hostOps2 (W6 m ρ c) (Proc.devRef .tc main_v60) = _
  after_results_simp
  rfl

end AnyInstance

/-! # At the extended reals: the two launches' arrays, and the whole -/

section AtIdeal

variable (m : (ℓ : Loc nD τ sig) → Buf (Elt Ideal) ℓ) (ρ : Dev nD → PrngReg)

/-- The first launch's output array holds x·W₁. -/
theorem projected4 (c : Dev nD) : W4 m ρ c (Proc.devRef .tc main_v30)
    = Cert.Spec.project1 (F := Ideal) (m ((c.tc : Thread nD τ).loc main_arg0)) (m ((c.tc : Thread nD τ).loc main_arg2)) := by
  refine (W4_arr m ρ c 2).trans ((Cert.KernelIdeal.Blocks.array0 (V3 m ρ) c).trans ?_)
  show Cert.Spec.project1 (F := Ideal) (W3 m ρ c (Proc.devRef .tc main_arg0)) (W3 m ρ c (Proc.devRef .tc main_arg2)) = _
  rw [x3, w1_3]

/-- The second launch's output array holds relu(a + b₁)·W₂ of the first aggregate. -/
theorem projected6 (c : Dev nD) : W6 m ρ c (Proc.devRef .tc main_v44)
    = Cert.Spec.project2 (F := Ideal)
        (Cert.Spec.aggregate64 (F := Ideal) (Cert.Spec.srcList (F := Ideal) (m ((c.tc : Thread nD τ).loc main_arg1))) (Cert.Spec.dstList (F := Ideal) (m ((c.tc : Thread nD τ).loc main_arg1)))
          (Cert.Spec.edgeWeights Ideal (Cert.Spec.srcList (F := Ideal) (m ((c.tc : Thread nD τ).loc main_arg1))) (Cert.Spec.dstList (F := Ideal) (m ((c.tc : Thread nD τ).loc main_arg1))))
          (Cert.Spec.project1 (F := Ideal) (m ((c.tc : Thread nD τ).loc main_arg0)) (m ((c.tc : Thread nD τ).loc main_arg2))))
        (m ((c.tc : Thread nD τ).loc main_arg3)) (m ((c.tc : Thread nD τ).loc main_arg4)) := by
  refine (W6_arr m ρ c 3).trans ((Cert.KernelIdeal.Blocks.array1 (V5 m ρ) c).trans ?_)
  show Cert.Spec.project2 (F := Ideal) (W5 m ρ c (Proc.devRef .tc main_v43)) (W5 m ρ c (Proc.devRef .tc main_arg3)) (W5 m ρ c (Proc.devRef .tc main_arg4)) = _
  rw [aggregated5, b1_5, w2_5, src4, dst4, weights4, projected4, b1_4, w2_4]

/-- The result buffer ends holding the network of the six launch arguments. -/
theorem result7 (c : Dev nD) : W7 m ρ c (Proc.devRef .tc main_v60)
    = Cert.Spec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [finished7, src6, dst6, weights6, projected6, b2_6]
  rfl

end AtIdeal

end Cert.KernelIdeal.Fold

end
-- ==== Proof.ReferenceRun.lean ====
/-
  The reference program's run, read back.

  The reference is a straight line of 119 host operations (two of them calls, whose operations stand in the
  call's place). Run from any memory with zero counters, every weakly fair execution terminates with each buffer at
  the operations' composed value of the launch contents: the result buffer at the graph network of Spec.lean applied
  to the six arguments — the second convolution's source list, target list and weights are computed a second time
  by the program, from the same edge array by the same operations, so they are the same terms — and the arguments
  unchanged.
-/
import proofs.«102471_j48309792145898_1_alg».proof.Proof.Gen.ReferenceIdeal
import proofs.«102471_j48309792145898_1_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_v5 (iotaInDim S100000 32 0),
    binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v6 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v6 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v6 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v4 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v7 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg4 main_v48 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v50 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v50 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v50 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v51 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v51 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v51 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    nullary main_c_17 (constantI S_ 32 0#32),
    unary main_c_17 main_v75 (broadcastInDim S1700000 ![] bcast_S_S1700000 : (⟨S_, .i32⟩ : BufTy).Contents (Elt F) → (⟨S1700000, .i32⟩ : BufTy).Contents (Elt F)),
    binary main_v50 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v77 (broadcastInDim S1700000 ![] bcast_S_S1700000 : (⟨S_, .i32⟩ : BufTy).Contents (Elt F) → (⟨S1700000, .i32⟩ : BufTy).Contents (Elt F)),
    binary main_v50 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v48 main_v80 main_v81 ((fun x i => Host.gather gather_S100000x2_S1700000x1_S1700000x2_1_0_n_n_0_1_12 x i) : (⟨S100000x2, .f32⟩ : BufTy).Contents (Elt F) → (⟨S1700000x1, .i32⟩ : BufTy).Contents (Elt F) → (⟨S1700000x2, .f32⟩ : BufTy).Contents (Elt F)),
    unary main_v74 main_v82 (broadcastInDim S1700000x1 ![0] bcast_S1700000_S1700000x1_0 : (⟨S1700000, .f32⟩ : BufTy).Contents (Elt F) → (⟨S1700000x1, .f32⟩ : BufTy).Contents (Elt F)),
    unary main_v82 main_v83 (broadcastInDim S1700000x2 ![0, 1] bcast_S1700000x1_S1700000x2_0_1 : (⟨S1700000x1, .f32⟩ : BufTy).Contents (Elt F) → (⟨S1700000x2, .f32⟩ : BufTy).Contents (Elt F)),
    binary main_v81 main_v83 main_v84 (mulf : (⟨S1700000x2, .f32⟩ : BufTy).Contents (Elt F) → (⟨S1700000x2, .f32⟩ : BufTy).Contents (Elt F) → (⟨S1700000x2, .f32⟩ : BufTy).Contents (Elt F)),
    nullary main_cst_19 (constant S_ .f32 0x00000000#32),
    unary main_cst_19 main_v85 (broadcastInDim S100000x2 ![] bcast_S_S100000x2 : (⟨S_, .f32⟩ : BufTy).Contents (Elt F) → (⟨S100000x2, .f32⟩ : BufTy).Contents (Elt F)),
    unary main_v51 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x2_S1700000x1_S1700000x2_1_0_0_1 x i u) : (⟨S100000x2, .f32⟩ : BufTy).Contents (Elt F) → (⟨S1700000x1, .i32⟩ : BufTy).Contents (Elt F) → (⟨S1700000x2, .f32⟩ : BufTy).Contents (Elt F) → (⟨S100000x2, .f32⟩ : BufTy).Contents (Elt F)),
    unary main_arg5 main_v88 (broadcastInDim S1x2 ![1] bcast_S2_S1x2_1 : (⟨S2, .f32⟩ : BufTy).Contents (Elt F) → (⟨S1x2, .f32⟩ : BufTy).Contents (Elt F)),
    unary main_v88 main_v89 (broadcastInDim S100000x2 ![0, 1] bcast_S1x2_S100000x2_0_1 : (⟨S1x2, .f32⟩ : BufTy).Contents (Elt F) → (⟨S100000x2, .f32⟩ : BufTy).Contents (Elt F)),
    binary main_v87 main_v89 main_v90 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 47600000 in
/-- On every device, at any float instance, from any memory with zero counters: every weakly fair execution of the
    reference terminates with the result at the network of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = Cert.Spec.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v90).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.lean ====
/-
  A two-layer graph convolution on 100000 nodes and 1600000 directed edges: the kernel against its reference.

  Both programs add a self-loop per node, count each node's incoming entries, weight every entry by the inverse
  square roots of its endpoints' degrees, and compute aggregate(relu(aggregate(x·W₁) + b₁)·W₂) + b₂, where one
  aggregation sends h[source]·weight to row target and sums. The reference does all of it with whole-array host
  operations (and computes the lists and weights once per layer); the kernel does the two dense steps x·W₁ and
  relu(a + b₁)·W₂ in launches over ten blocks of 10000 rows, casting the matrix unit's operands to a narrower format,
  and the rest with the same host operations (lists and weights once).

  At the extended reals the casts are the identity and the matrix unit's product into zero is the textbook sum of
  products, so each launch's output array is the whole-matrix dense step (a dense step acts row by row, and the
  blocks tile the rows). Everything else is the same composition of the same operations on both sides. No
  algebraic law that could fail at an infinity is used, so the finiteness precondition is never opened.

  The three frames: the two kernel programs' from their generated frame theorems, the reference's from its run.
  The idealization changed no operation, so that conjunct is trivial.
-/
import proofs.«102471_j48309792145898_1_alg».proof.Defs
import proofs.«102471_j48309792145898_1_alg».proof.Proof.Gen.Kernel
import proofs.«102471_j48309792145898_1_alg».proof.Proof.Gen.Kernel.Skeleton
import proofs.«102471_j48309792145898_1_alg».proof.Proof.Gen.Kernel.Launch
import proofs.«102471_j48309792145898_1_alg».proof.Proof.Gen.Kernel.Points
import proofs.«102471_j48309792145898_1_alg».proof.Proof.Gen.Kernel.Frame
import proofs.«102471_j48309792145898_1_alg».proof.Proof.Gen.KernelIdeal
import proofs.«102471_j48309792145898_1_alg».proof.Proof.Gen.KernelIdeal.Skeleton
import proofs.«102471_j48309792145898_1_alg».proof.Proof.Gen.KernelIdeal.Launch
import proofs.«102471_j48309792145898_1_alg».proof.Proof.Gen.KernelIdeal.Points
import proofs.«102471_j48309792145898_1_alg».proof.Proof.Gen.KernelIdeal.Frame
import proofs.«102471_j48309792145898_1_alg».proof.Proof.Gen.ReferenceIdeal
import proofs.«102471_j48309792145898_1_alg».proof.Proof.Gen.Pre_finite_inputs
import proofs.«102471_j48309792145898_1_alg».proof.Proof.KernelRun
import proofs.«102471_j48309792145898_1_alg».proof.Proof.Fold
import proofs.«102471_j48309792145898_1_alg».proof.Proof.ReferenceRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

/-- Both idealized programs end with the network of Spec.lean of the (agreeing) arguments in their result buffer. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result7 m ρ c), (h c).2⟩)
      (Cert.KernelIdeal.ValueRun.run m ρ)
  · refine (θ_run Cert.ReferenceIdeal.defs _ _).mono (fun r h c => ⟨?_, (h c).2⟩)
      (Cert.ReferenceIdeal.HandRun.run (F := Ideal) m' ρ')
    obtain ⟨h0, h1, h2, h3, h4, h5⟩ := hagree c
    rw [(h c).1, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
